-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S14336x4096 : Shape := ⟨2, ![14336, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S14336x4096 .f32) (main_arg2 : FVec F S14336x4096 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S14336x4096 : Shape := ⟨2, ![14336, 4096]⟩
abbrev S512x4096 : Shape := ⟨2, ![512, 4096]⟩
abbrev S256x4096 : Shape := ⟨2, ![256, 4096]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S14336x4096, .f32⟩
  | .hbm, ⟨3, _⟩ => ⟨S14336x4096, .f32⟩
  | .hbm, ⟨4, _⟩ => ⟨S4096x4096, .bf16⟩
  | .hbm, ⟨5, _⟩ => ⟨S14336x4096, .bf16⟩
  | .hbm, ⟨6, _⟩ => ⟨S14336x4096, .bf16⟩
  | .hbm, ⟨7, _⟩ => ⟨S14336x4096, .bf16⟩
  | .hbm, ⟨8, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S512x4096_S256x4096_S512x256_1_1_0_0_n_n_wf : DotDims.WF S512x4096 S256x4096 S512x256 [1] [1] [0] [0] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .bf16 = 32 ∨ (Rect.block (s := S14336x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .bf16 = 32 ∨ (Rect.block (s := S14336x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S14336x4096, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S14336x4096_S4096x14336_1_1_0_0_n_n_wf : DotDims.WF S4096x4096 S14336x4096 S4096x14336 [1] [1] [0] [0] [] []
  dot_S4096x14336_S14336x4096_S4096x4096_1_0_0_1_n_n_wf : DotDims.WF S4096x14336 S14336x4096 S4096x4096 [1] [0] [0] [1] [] []

variable [Facts₀]

def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S14336x4096_S4096x4096_1_0_0_1_n_n : DotDims S4096x14336 S14336x4096 S4096x4096 where
  lhsContracting := [1]
  rhsContracting := [0]
  lhsNonContracting := [0]
  rhsNonContracting := [1]
  lhsBatch := []
  rhsBatch := []
  wf := dot_S4096x14336_S14336x4096_S4096x4096_1_0_0_1_n_n_wf

class Facts : Prop extends Facts₀ where

variable [Facts]
-- ==== Proof.LibAxisTiles.lean ====
/-
  An axis cut into consecutive tiles of equal width, and a sum over the axis regrouped tile by tile.

  An axis of extent `N = Tn · R` is the disjoint union of `Tn` consecutive tiles of width `R`: coordinate
  `R · s + r` is position `r` of tile `s`. A sum over the axis, in any commutative additive monoid, is therefore the
  sum over the tiles of the sums inside each tile. This is the law by which a contraction accumulated block by block
  (one block of the contracted axis per grid point or loop trip) equals the contraction taken whole; it needs no
  finiteness of the terms, so it holds on the extended reals as it stands.
-/
import Mathlib.Algebra.BigOperators.Fin

namespace Cert.LibAxisTiles

open scoped BigOperators

variable {Tn R N : ℕ}

/-- Position `r` of tile `s` on an axis of extent `N = Tn · R` cut into `Tn` consecutive tiles of width `R`:
    the coordinate `R · s + r`. -/
def tileIdx (hN : N = Tn * R) (s : Fin Tn) (r : Fin R) : Fin N :=
  ⟨R * s.val + r.val, by
    subst hN
    calc R * s.val + r.val < R * s.val + R := Nat.add_lt_add_left r.isLt _
      _ = R * (s.val + 1) := (Nat.mul_succ R s.val).symm
      _ ≤ R * Tn := Nat.mul_le_mul_left R s.isLt
      _ = Tn * R := Nat.mul_comm R Tn⟩

/-- The coordinate of position `r` of tile `s`. -/
@[simp] theorem tileIdx_val (hN : N = Tn * R) (s : Fin Tn) (r : Fin R) : (tileIdx hN s r).val = R * s.val + r.val := rfl

/-- A sum over the axis is the sum over the tiles of the sums inside each tile. -/
theorem sum_tiles {β : Type*} [AddCommMonoid β] (hN : N = Tn * R) (a : Fin N → β) :
    ∑ f : Fin N, a f = ∑ s : Fin Tn, ∑ r : Fin R, a (tileIdx hN s r) := by
  subst hN
  rw [← Equiv.sum_comp finProdFinEquiv a, Fintype.sum_prod_type]
  refine Finset.sum_congr rfl fun s _ => Finset.sum_congr rfl fun r _ => congrArg a (Fin.ext ?_)
  show r.val + R * s.val = R * s.val + r.val
  exact Nat.add_comm _ _

end Cert.LibAxisTiles
-- ==== Proof.GatedMlp.lean ====
/-
  The gated feed-forward product on the extended reals, and its sum over the feature axis cut into tiles.

  For a token matrix `X` of shape [T, H], two projection matrices `W1`, `V1` of shape [F, H] and an output matrix
  `W2` of shape [F, N], the product at token `t` and output coordinate `h` is

      out t h  =  Σ_f  silu (Σ_k X t k · W1 f k) · (Σ_k X t k · V1 f k) · W2 f h,      silu z = z · 1 / (1 + e^(-z)).

  Two facts about it are proved here, both by regrouping finite sums, which needs no finiteness of the entries
  (addition on the extended reals is a commutative monoid):

  * LOCALITY. The inner entry `inter t f` depends on row `t` of `X` and on rows `f` of `W1` and `V1` only, so a
    block of rows of `X` and a block of rows of the weights give the same entries as the whole matrices do.
  * TILES. When the feature axis of extent F = Tn · R is cut into `Tn` consecutive tiles of width `R`, the sum over
    `f` is the sum over the tiles of the sums inside each tile, feature `R · s + r` being position `r` of tile `s`
    (the general law for any axis is Proof/LibAxisTiles.lean).
-/
import Idealize.ShloMosaic.PureOps.Ideal.Laws
import Idealize.ShloMosaic.Lib.ValueIdx
import proofs.«140187_j49228915147014_2_alg».proof.Proof.LibAxisTiles

noncomputable section

namespace Cert.GatedMlp

open Idealize.ShloMosaic Idealize.ShloMosaic.ValueIdx
open scoped BigOperators

/-- The sigmoid-weighted unit: `silu z = z · 1 / (1 + e^(-z))`, with the conventions of the extended reals at ±∞. -/
def silu (z : EReal) : EReal := z * Ideal.logistic z

section Product

variable {T H Fd N : ℕ} {φ₀ φ₁ φ₂ φ₃ : FTy}

/-- Entry `(t, f)` of a projection `X · Wᵀ`: row `t` of `X` against row `f` of `W`. -/
def proj (X : FVec Ideal ⟨2, ![T, H]⟩ φ₀) (W : FVec Ideal ⟨2, ![Fd, H]⟩ φ₁) (t : Fin T) (f : Fin Fd) : EReal :=
  ∑ k : Fin H, (X (ix2 t k) : EReal) * (W (ix2 f k) : EReal)

/-- Entry `(t, f)` of the gated intermediate: the gate projection through `silu`, times the up projection. -/
def inter (X : FVec Ideal ⟨2, ![T, H]⟩ φ₀) (W1 : FVec Ideal ⟨2, ![Fd, H]⟩ φ₁) (V1 : FVec Ideal ⟨2, ![Fd, H]⟩ φ₂)
    (t : Fin T) (f : Fin Fd) : EReal :=
  silu (proj X W1 t f) * proj X V1 t f

/-- Entry `(t, h)` of the gated product: the intermediate's row `t` against column `h` of `W2`. -/
def out (X : FVec Ideal ⟨2, ![T, H]⟩ φ₀) (W1 : FVec Ideal ⟨2, ![Fd, H]⟩ φ₁) (V1 : FVec Ideal ⟨2, ![Fd, H]⟩ φ₂)
    (W2 : FVec Ideal ⟨2, ![Fd, N]⟩ φ₃) (t : Fin T) (h : Fin N) : EReal :=
  ∑ f : Fin Fd, inter X W1 V1 t f * (W2 (ix2 f h) : EReal)

variable {T' Fd' : ℕ} {ψ₀ ψ₁ ψ₂ : FTy}

/-- A projection's entry reads one row of each operand: equal rows give equal entries. -/
theorem proj_rows (X : FVec Ideal ⟨2, ![T, H]⟩ φ₀) (W : FVec Ideal ⟨2, ![Fd, H]⟩ φ₁)
    (x : FVec Ideal ⟨2, ![T', H]⟩ ψ₀) (w : FVec Ideal ⟨2, ![Fd', H]⟩ ψ₁) (t : Fin T) (f : Fin Fd) (p : Fin T') (r : Fin Fd')
    (hx : ∀ k : Fin H, (x (ix2 p k) : EReal) = X (ix2 t k)) (hw : ∀ k : Fin H, (w (ix2 r k) : EReal) = W (ix2 f k)) :
    proj x w p r = proj X W t f :=
  Finset.sum_congr rfl fun k _ => by rw [hx k, hw k]

/-- The gated intermediate's entry reads row `t` of `X` and rows `f` of the two projection matrices only. -/
theorem inter_rows (X : FVec Ideal ⟨2, ![T, H]⟩ φ₀) (W1 : FVec Ideal ⟨2, ![Fd, H]⟩ φ₁) (V1 : FVec Ideal ⟨2, ![Fd, H]⟩ φ₂)
    (x : FVec Ideal ⟨2, ![T', H]⟩ ψ₀) (w1 : FVec Ideal ⟨2, ![Fd', H]⟩ ψ₁) (v1 : FVec Ideal ⟨2, ![Fd', H]⟩ ψ₂)
    (t : Fin T) (f : Fin Fd) (p : Fin T') (r : Fin Fd')
    (hx : ∀ k : Fin H, (x (ix2 p k) : EReal) = X (ix2 t k)) (hw : ∀ k : Fin H, (w1 (ix2 r k) : EReal) = W1 (ix2 f k))
    (hv : ∀ k : Fin H, (v1 (ix2 r k) : EReal) = V1 (ix2 f k)) :
    inter x w1 v1 p r = inter X W1 V1 t f := by
  unfold inter
  rw [proj_rows X W1 x w1 t f p r hx hw, proj_rows X V1 x v1 t f p r hx hv]

end Product

/-! ## The feature axis cut into tiles -/

section Tiles

variable {Tn R : ℕ} {T H Fd M : ℕ} {φ₀ φ₁ φ₂ φ₃ : FTy}

/-- The gated product with its feature axis cut into `Tn` tiles of width `R`: the sum over the features is the sum
    over the tiles of the sums inside each tile, feature `R · s + r` being position `r` of tile `s`. -/
theorem out_tiles (hF : Fd = Tn * R) (X : FVec Ideal ⟨2, ![T, H]⟩ φ₀) (W1 : FVec Ideal ⟨2, ![Fd, H]⟩ φ₁)
    (V1 : FVec Ideal ⟨2, ![Fd, H]⟩ φ₂) (W2 : FVec Ideal ⟨2, ![Fd, M]⟩ φ₃) (t : Fin T) (h : Fin M) :
    out X W1 V1 W2 t h
      = ∑ s : Fin Tn, ∑ r : Fin R, inter X W1 V1 t (LibAxisTiles.tileIdx hF s r)
          * (W2 (ix2 (LibAxisTiles.tileIdx hF s r) h) : EReal) :=
  LibAxisTiles.sum_tiles hF _

end Tiles

end Cert.GatedMlp

end
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.ReferenceProduct.lean ====
/-
  The reference's result, entry by entry, is the gated feed-forward product.

  The reference computes the two projections `X · W1ᵀ` and `X · V1ᵀ` as products contracting both operands' second
  axes, spells `silu z` as `z · (1 / (1 + e^(-z)))` with the constant `1.0` written as an f32 word, multiplies by the
  second projection, and contracts the result's feature axis against `W2`'s first axis. On the extended reals the
  f32 word of `1.0` denotes `1` and the quotient `1 / (1 + e^(-z))` is the logistic function, so each entry is
  `Σ_f silu (Σ_k X t k · W1 f k) · (Σ_k X t k · V1 f k) · W2 f h`.
-/
import proofs.«140187_j49228915147014_2_alg».proof.Proof.Gen.ReferenceIdeal
import proofs.«140187_j49228915147014_2_alg».proof.Proof.GatedMlp
import proofs.«140187_j49228915147014_2_alg».proof.Proof.LibTransposedMatmul
import proofs.«140187_j49228915147014_2_alg».proof.Proof.LibPlainMatmul

noncomputable section

namespace Cert.ReferenceIdeal.Product

open Cert.ReferenceIdeal Cert.ReferenceIdeal.Gen Idealize.ShloMosaic Idealize.ShloMosaic.ValueIdx
open scoped BigOperators

/-- The f32 word `0x3F800000` denotes the real number 1. -/
theorem ofBits_one : Ideal.ofBits .f32 0x3F800000#32 = 1 := by
  simp [Ideal.ofBits, Ideal.ieee, -EReal.coe_mul]; norm_num

/-- A projection of the reference, at an entry: row `t` of the tokens against row `f` of the weights. -/
theorem proj_apply (X : FVec Ideal S4096x4096 .f32) (W : FVec Ideal S14336x4096 .f32) (t : Fin 4096) (f : Fin 14336) :
    Host.dotGeneral dot_S4096x4096_S14336x4096_S4096x14336_1_1_0_0_n_n none X W (ix2 t f) = GatedMlp.proj X W t f :=
  LibTransposedMatmul.dotGeneral_apply 4096 4096 14336 none X W t f

/-- The reference's spelling of `silu`, at an entry: `z · (1 / (1 + e^(-z)))` with `1` as its f32 word. -/
theorem silu_apply (G : FVec Ideal S4096x14336 .f32) (i : S4096x14336.Idx) :
    mulf G (Host.divf (broadcastInDim S4096x14336 ![] bcast_S_S4096x14336 (constant S_ .f32 0x3F800000#32))
      (addf (broadcastInDim S4096x14336 ![] bcast_S_S4096x14336 (constant S_ .f32 0x3F800000#32))
        (Host.exp (Host.negf G)))) i = GatedMlp.silu (G i) := by
  show (G i : EReal) * Ideal.div (Ideal.ofBits .f32 0x3F800000#32) (Ideal.ofBits .f32 0x3F800000#32 + Ideal.exp (-(G i)))
    = (G i : EReal) * Ideal.div 1 (1 + Ideal.exp (-(G i)))
  rw [ofBits_one]

/-- The reference's composed term is the gated product, entry by entry. -/
theorem result_eq (X : FVec Ideal S4096x4096 .f32) (W1 V1 W2 : FVec Ideal S14336x4096 .f32) :
    Host.dotGeneral dot_S4096x14336_S14336x4096_S4096x4096_1_0_0_1_n_n none
      (mulf
        (mulf (Host.dotGeneral dot_S4096x4096_S14336x4096_S4096x14336_1_1_0_0_n_n none X W1)
          (Host.divf (broadcastInDim S4096x14336 ![] bcast_S_S4096x14336 (constant S_ .f32 0x3F800000#32))
            (addf (broadcastInDim S4096x14336 ![] bcast_S_S4096x14336 (constant S_ .f32 0x3F800000#32))
              (Host.exp (Host.negf (Host.dotGeneral dot_S4096x4096_S14336x4096_S4096x14336_1_1_0_0_n_n none X W1))))))
        (Host.dotGeneral dot_S4096x4096_S14336x4096_S4096x14336_1_1_0_0_n_n none X V1))
      W2
    = fun i => GatedMlp.out X W1 V1 W2 (i 0) (i 1) := by
  funext i
  obtain ⟨t, h, rfl⟩ : ∃ (t : Fin 4096) (h : Fin 4096), i = ix2 t h := ⟨i 0, i 1, eq_ix2 i⟩
  refine (LibPlainMatmul.dotGeneral_apply 4096 14336 4096 none _ W2 t h).trans ?_
  show _ = ∑ f : Fin 14336, GatedMlp.inter X W1 V1 t f * (W2 (ix2 f h) : EReal)
  refine Finset.sum_congr rfl fun f _ => congrArg (· * (W2 (ix2 f h) : EReal)) ?_
  rw [mulf_apply, silu_apply, proj_apply, proj_apply]
  rfl

end Cert.ReferenceIdeal.Product

end
-- ==== Proof.TileStep.lean ====
/-
  One grid point's arithmetic, entry by entry.

  At a grid point the body holds a block `x` of 512 token rows, blocks `w1`, `v1`, `w2` of 256 feature rows of the
  three weight matrices, and the running output block `acc`. It forms the two 512 × 256 projections `x · w1ᵀ` and
  `x · v1ᵀ`, passes the first through `z ↦ z · logistic z`, multiplies by the second, and adds the product of that
  512 × 256 block with `w2` to `acc`. On the extended reals a change of float format is the identity and each matrix
  product into a zero accumulator is a plain finite sum, so the new block at `(p, c)` is `acc (p, c)` plus the gated
  product of the four blocks at `(p, c)`: the gated product restricted to this point's 256 features.
  The block the first point of a run starts from is all zeros.
-/
import proofs.«140187_j49228915147014_2_alg».proof.Proof.Gen.KernelIdeal.Skeleton
import proofs.«140187_j49228915147014_2_alg».proof.Proof.GatedMlp
import proofs.«140187_j49228915147014_2_alg».proof.Proof.LibTransposedMatmul
import proofs.«140187_j49228915147014_2_alg».proof.Proof.LibPlainMatmul
import Idealize.ShloMosaic.Lib.Pipeline.Value

noncomputable section

namespace Cert.KernelIdeal.TileStep

open Cert.KernelIdeal Cert.KernelIdeal.Gen Idealize.ShloMosaic Idealize.ShloMosaic.ValueIdx
open scoped BigOperators

/-- The block a run starts from holds zero everywhere. -/
theorem zero_block (y : S512x4096.Idx) : k0_pay1 (F := Ideal) y = (0 : EReal) :=
  Ideal.ofBits_zero_f32

/-- A projection of the body, at an entry: row `p` of the token block against row `r` of the weight block. -/
theorem proj_apply (x : FVec Ideal S512x4096 .bf16) (w : FVec Ideal S256x4096 .bf16) (p : Fin 512) (r : Fin 256) :
    matmul dot_S512x4096_S256x4096_S512x256_1_1_0_0_n_n none x w (constant (F := Ideal) S512x256 .f32 0x00000000#32) (ix2 p r)
      = GatedMlp.proj x w p r :=
  LibTransposedMatmul.matmul_zero_apply 512 4096 256 none x w p r

/-- What a grid point leaves in the output block, at an entry: what it found there plus the gated product of the
    point's four input blocks. -/
theorem step_apply (x : FVec Ideal S512x4096 .bf16) (w1 v1 w2 : FVec Ideal S256x4096 .bf16) (acc : FVec Ideal S512x4096 .f32)
    (p : Fin 512) (c : Fin 4096) :
    k0_pay2 (F := Ideal) x w1 v1 w2 acc (ix2 p c) = (acc (ix2 p c) : EReal) + GatedMlp.out x w1 v1 w2 p c := by
  unfold k0_pay2
  simp only [shapeCast_self]
  refine congrArg (fun z : EReal => (acc (ix2 p c) : EReal) + z) ?_
  refine (LibPlainMatmul.matmul_zero_apply 512 256 4096 none _ w2 p c).trans ?_
  show _ = ∑ r : Fin 256, GatedMlp.inter x w1 v1 p r * (w2 (ix2 r c) : EReal)
  refine Finset.sum_congr rfl fun r _ => congrArg (· * (w2 (ix2 r c) : EReal)) ?_
  show (matmul dot_S512x4096_S256x4096_S512x256_1_1_0_0_n_n none x w1 (constant (F := Ideal) S512x256 .f32 0x00000000#32) (ix2 p r)
      * Ideal.logistic (matmul dot_S512x4096_S256x4096_S512x256_1_1_0_0_n_n none x w1 (constant (F := Ideal) S512x256 .f32 0x00000000#32) (ix2 p r)))
      * matmul dot_S512x4096_S256x4096_S512x256_1_1_0_0_n_n none x v1 (constant (F := Ideal) S512x256 .f32 0x00000000#32) (ix2 p r)
    = GatedMlp.inter x w1 v1 p r
  rw [proj_apply, proj_apply]
  rfl

end Cert.KernelIdeal.TileStep

end
-- ==== Proof.InputBlocks.lean ====
/-
  The input blocks of a grid point, read off the argument arrays.

  The grid has 8 × 56 points, point `t` having row-tile `t / 56` and feature-tile `t % 56`. The token window's block
  at `t` is rows `512 · (t / 56) … + 511` of the token array, and each weight window's block is rows
  `256 · (t % 56) … + 255` of its weight array, all 4096 columns in both cases. The arrays the windows stage are the
  arguments converted to a narrower float format before the launch, which on the extended reals changes no entry. So
  entry `(p, k)` of the token block is the token argument at `(512 · (t / 56) + p, k)`, and entry `(r, k)` of a weight
  block is that weight argument at `(256 · (t % 56) + r, k)`.
-/
import proofs.«140187_j49228915147014_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.InputBlocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The staged arrays are the arguments -/

/-- The token array the region finds is the token argument, entry by entry. -/
theorem staged_tokens (c : Dev nD) (i : S4096x4096.Idx) :
    (V m c main_v0 i : EReal) = m ((c : Thread nD τ).loc main_arg0) i := by
  have e : (V m c main_v0 : S4096x4096.Idx → EReal) = fun j => (m ((c : Thread nD τ).loc main_arg0) j : EReal) := by
    dsimp only [V, hostOps0]; after_results; rfl
  exact congrFun e i

/-- The gate-projection array the region finds is its argument, entry by entry. -/
theorem staged_gate (c : Dev nD) (i : S14336x4096.Idx) :
    (V m c main_v1 i : EReal) = m ((c : Thread nD τ).loc main_arg1) i := by
  have e : (V m c main_v1 : S14336x4096.Idx → EReal) = fun j => (m ((c : Thread nD τ).loc main_arg1) j : EReal) := by
    dsimp only [V, hostOps0]; after_results; rfl
  exact congrFun e i

/-- The up-projection array the region finds is its argument, entry by entry. -/
theorem staged_up (c : Dev nD) (i : S14336x4096.Idx) :
    (V m c main_v2 i : EReal) = m ((c : Thread nD τ).loc main_arg2) i := by
  have e : (V m c main_v2 : S14336x4096.Idx → EReal) = fun j => (m ((c : Thread nD τ).loc main_arg2) j : EReal) := by
    dsimp only [V, hostOps0]; after_results; rfl
  exact congrFun e i

/-- The down-projection array the region finds is its argument, entry by entry. -/
theorem staged_down (c : Dev nD) (i : S14336x4096.Idx) :
    (V m c main_v3 i : EReal) = m ((c : Thread nD τ).loc main_arg3) i := by
  have e : (V m c main_v3 : S14336x4096.Idx → EReal) = fun j => (m ((c : Thread nD τ).loc main_arg3) j : EReal) := by
    dsimp only [V, hostOps0]; after_results; rfl
  exact congrFun e i

/-! ## Which rows a point's blocks are -/

/-- The block indices of the four input windows at a point: the token window follows the row-tile `t / 56`, the
    three weight windows the feature-tile `t % 56`; none moves along the columns. -/
theorem block_indices : ∀ t : Fin cfg0.N,
    win0_0.index t (0 : Fin 2) = t.val / 56 ∧ win0_0.index t (1 : Fin 2) = 0
    ∧ win0_1.index t (0 : Fin 2) = t.val % 56 ∧ win0_1.index t (1 : Fin 2) = 0
    ∧ win0_2.index t (0 : Fin 2) = t.val % 56 ∧ win0_2.index t (1 : Fin 2) = 0
    ∧ win0_3.index t (0 : Fin 2) = t.val % 56 ∧ win0_3.index t (1 : Fin 2) = 0 :=
  (by decide +kernel : ∀ t : Fin grid0.N, _)

/-- Entry `(p, k)` of the token block at point `t` is the token argument at row `512 · (t / 56) + p`, column `k`. -/
theorem tokens_block (c : Dev nD) (t : Fin cfg0.N) (p : Fin 512) (k : Fin 4096) (i : S4096x4096.Idx)
    (h0 : (i 0).val = 512 * (t.val / 56) + p.val) (h1 : (i 1).val = k.val) :
    (iblk m c 0 t (ix2 p k) : EReal) = m ((c : Thread nD τ).loc main_arg0) i := by
  obtain ⟨e0, e1, -⟩ := block_indices t
  refine (staged_tokens m c (((cfg0.win 0).blk t).view.emb (ix2 p k))).trans ?_
  refine congrArg (m ((c : Thread nD τ).loc main_arg0)) (funext fun a => Fin.ext ?_)
  match a with
  | ⟨0, _⟩ => show win0_0.index t (0 : Fin 2) * 512 + 1 * p.val = (i 0).val; omega
  | ⟨1, _⟩ => show win0_0.index t (1 : Fin 2) * 4096 + 1 * k.val = (i 1).val; omega

/-- Entry `(r, k)` of the gate-projection block at point `t` is that argument at row `256 · (t % 56) + r`, column `k`. -/
theorem gate_block (c : Dev nD) (t : Fin cfg0.N) (r : Fin 256) (k : Fin 4096) (i : S14336x4096.Idx)
    (h0 : (i 0).val = 256 * (t.val % 56) + r.val) (h1 : (i 1).val = k.val) :
    (iblk m c 1 t (ix2 r k) : EReal) = m ((c : Thread nD τ).loc main_arg1) i := by
  obtain ⟨-, -, e0, e1, -⟩ := block_indices t
  refine (staged_gate m c (((cfg0.win 1).blk t).view.emb (ix2 r k))).trans ?_
  refine congrArg (m ((c : Thread nD τ).loc main_arg1)) (funext fun a => Fin.ext ?_)
  match a with
  | ⟨0, _⟩ => show win0_1.index t (0 : Fin 2) * 256 + 1 * r.val = (i 0).val; omega
  | ⟨1, _⟩ => show win0_1.index t (1 : Fin 2) * 4096 + 1 * k.val = (i 1).val; omega

/-- Entry `(r, k)` of the up-projection block at point `t` is that argument at row `256 · (t % 56) + r`, column `k`. -/
theorem up_block (c : Dev nD) (t : Fin cfg0.N) (r : Fin 256) (k : Fin 4096) (i : S14336x4096.Idx)
    (h0 : (i 0).val = 256 * (t.val % 56) + r.val) (h1 : (i 1).val = k.val) :
    (iblk m c 2 t (ix2 r k) : EReal) = m ((c : Thread nD τ).loc main_arg2) i := by
  obtain ⟨-, -, -, -, e0, e1, -⟩ := block_indices t
  refine (staged_up m c (((cfg0.win 2).blk t).view.emb (ix2 r k))).trans ?_
  refine congrArg (m ((c : Thread nD τ).loc main_arg2)) (funext fun a => Fin.ext ?_)
  match a with
  | ⟨0, _⟩ => show win0_2.index t (0 : Fin 2) * 256 + 1 * r.val = (i 0).val; omega
  | ⟨1, _⟩ => show win0_2.index t (1 : Fin 2) * 4096 + 1 * k.val = (i 1).val; omega

/-- Entry `(r, k)` of the down-projection block at point `t` is that argument at row `256 · (t % 56) + r`, column `k`. -/
theorem down_block (c : Dev nD) (t : Fin cfg0.N) (r : Fin 256) (k : Fin 4096) (i : S14336x4096.Idx)
    (h0 : (i 0).val = 256 * (t.val % 56) + r.val) (h1 : (i 1).val = k.val) :
    (iblk m c 3 t (ix2 r k) : EReal) = m ((c : Thread nD τ).loc main_arg3) i := by
  obtain ⟨-, -, -, -, -, -, e0, e1⟩ := block_indices t
  refine (staged_down m c (((cfg0.win 3).blk t).view.emb (ix2 r k))).trans ?_
  refine congrArg (m ((c : Thread nD τ).loc main_arg3)) (funext fun a => Fin.ext ?_)
  match a with
  | ⟨0, _⟩ => show win0_3.index t (0 : Fin 2) * 256 + 1 * r.val = (i 0).val; omega
  | ⟨1, _⟩ => show win0_3.index t (1 : Fin 2) * 4096 + 1 * k.val = (i 1).val; omega

end Cert.KernelIdeal.InputBlocks

end
-- ==== Proof.RunFold.lean ====
/-
  What the output array holds after the run: the gated feed-forward product of the four arguments.

  Each block of 512 output rows is built over a run of 56 consecutive grid points, one per tile of 256 features. The
  first point of the run starts the block at zero; every point adds the gated product of its four input blocks. So
  after the run's last point the block holds, at `(p, c)`, zero plus the sum over the run's 56 points of those
  addends. Point `56 · q + s` holds token rows `512 · q …` and feature rows `256 · s …`, and the gated intermediate
  reads single rows of its operands, so its addend at `(p, c)` is the part of the whole product's sum at
  `(512 · q + p, c)` that runs over the features of tile `s`. The 56 tiles partition the 14336 features, and a finite
  sum on the extended reals may be regrouped freely: the run's total is the whole product.
-/
import proofs.«140187_j49228915147014_2_alg».proof.Proof.Gen.KernelIdeal.Value
import proofs.«140187_j49228915147014_2_alg».proof.Proof.GatedMlp
import proofs.«140187_j49228915147014_2_alg».proof.Proof.TileStep
import proofs.«140187_j49228915147014_2_alg».proof.Proof.InputBlocks

noncomputable section

namespace Cert.KernelIdeal.RunFold

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-! ## The arguments and a point's blocks, as matrices of extended reals -/

/-- The token argument [4096, 4096]. -/
abbrev tokens (c : Dev nD) : FVec Ideal S4096x4096 .f32 := m ((c : Thread nD τ).loc main_arg0)
/-- The gate-projection argument [14336, 4096]. -/
abbrev gateW (c : Dev nD) : FVec Ideal S14336x4096 .f32 := m ((c : Thread nD τ).loc main_arg1)
/-- The up-projection argument [14336, 4096]. -/
abbrev upW (c : Dev nD) : FVec Ideal S14336x4096 .f32 := m ((c : Thread nD τ).loc main_arg2)
/-- The down-projection argument [14336, 4096]. -/
abbrev downW (c : Dev nD) : FVec Ideal S14336x4096 .f32 := m ((c : Thread nD τ).loc main_arg3)

/-- The token block of point `n`. -/
abbrev tokBlk (c : Dev nD) (n : ℕ) (h : n < cfg0.N) : FVec Ideal S512x4096 .bf16 := iblk m c 0 ⟨n, h⟩
/-- The gate-projection block of point `n`. -/
abbrev gateBlk (c : Dev nD) (n : ℕ) (h : n < cfg0.N) : FVec Ideal S256x4096 .bf16 := iblk m c 1 ⟨n, h⟩
/-- The up-projection block of point `n`. -/
abbrev upBlk (c : Dev nD) (n : ℕ) (h : n < cfg0.N) : FVec Ideal S256x4096 .bf16 := iblk m c 2 ⟨n, h⟩
/-- The down-projection block of point `n`. -/
abbrev downBlk (c : Dev nD) (n : ℕ) (h : n < cfg0.N) : FVec Ideal S256x4096 .bf16 := iblk m c 3 ⟨n, h⟩

/-- The 14336 features are 56 tiles of 256. -/
theorem features_tiled : 14336 = 56 * 256 := by norm_num

/-! ## The run as a sum of the points' addends -/

/-- What point `n` adds to the output block, entry by entry: the gated product of its four input blocks (zero past
    the grid, where it is never read). -/
def addend (c : Dev nD) (n : ℕ) (y : S512x4096.Idx) : EReal :=
  if h : n < cfg0.N then GatedMlp.out (tokBlk m c n h) (gateBlk m c n h) (upBlk m c n h) (downBlk m c n h) (y 0) (y 1) else 0

/-- The first point of a run leaves zero plus its addend. -/
theorem reset_apply (c : Dev nD) (n : ℕ) (h : n < cfg0.N) (y : S512x4096.Idx) :
    Value.reset4 m c n h y = (0 : EReal) + addend m c n y := by
  obtain ⟨p, q, rfl⟩ : ∃ (p : Fin 512) (q : Fin 4096), y = ix2 p q := ⟨y 0, y 1, eq_ix2 y⟩
  unfold addend
  rw [dif_pos h]
  exact (TileStep.step_apply (tokBlk m c n h) (gateBlk m c n h) (upBlk m c n h) (downBlk m c n h) (k0_pay1 (F := Ideal)) p q).trans
    (congrArg (fun z : EReal => z + GatedMlp.out (tokBlk m c n h) (gateBlk m c n h) (upBlk m c n h) (downBlk m c n h) p q)
      (TileStep.zero_block (ix2 p q)))

/-- Every later point leaves what it found plus its addend. -/
theorem step_apply (c : Dev nD) (n : ℕ) (h : n < cfg0.N) (acc : Vec Ideal S512x4096 .f32) (y : S512x4096.Idx) :
    Value.step4 m c n h acc y = (acc y : EReal) + addend m c n y := by
  obtain ⟨p, q, rfl⟩ : ∃ (p : Fin 512) (q : Fin 4096), y = ix2 p q := ⟨y 0, y 1, eq_ix2 y⟩
  unfold addend
  rw [dif_pos h]
  exact TileStep.step_apply (tokBlk m c n h) (gateBlk m c n h) (upBlk m c n h) (downBlk m c n h) acc p q

/-- After the 56 points of the run starting at `b`, the block holds zero plus the sum of their addends. -/
theorem fold_apply (c : Dev nD) (b : ℕ) (hb : b + 55 < cfg0.N) (y : S512x4096.Idx) :
    Pipeline.accAt (Value.reset4 m c) (Value.step4 m c) b 55 hb y
      = (0 : EReal) + ∑ s ∈ Finset.range 56, addend m c (b + s) y :=
  Pipeline.accAt_add_apply (β := EReal) (Value.reset4 m c) (Value.step4 m c) (fun _ => 0) (addend m c) b 55
    (fun h i => reset_apply m c b h i) (fun n h acc i _ _ => step_apply m c n h acc i) 55 le_rfl hb y

/-! ## A point's addend is one tile of the whole product's sum -/

/-- At a point `n` of feature-tile `s` whose token block holds row `t` of the tokens at block row `y 0`, the addend at
    `y` is the sum, over the 256 features of tile `s`, of the whole product's terms at `(t, h)`. -/
theorem addend_apply (c : Dev nD) (n : ℕ) (hn : n < cfg0.N) (y : S512x4096.Idx) (t h : Fin 4096) (s : Fin 56)
    (hs : n % 56 = s.val) (ht : t.val = 512 * (n / 56) + (y 0).val) (hh : h.val = (y 1).val) :
    addend m c n y
      = ∑ r : Fin 256, GatedMlp.inter (tokens m c) (gateW m c) (upW m c) t (LibAxisTiles.tileIdx features_tiled s r)
          * (downW m c (ix2 (LibAxisTiles.tileIdx features_tiled s r) h) : EReal) := by
  unfold addend
  rw [dif_pos hn]
  show ∑ r : Fin 256, GatedMlp.inter (tokBlk m c n hn) (gateBlk m c n hn) (upBlk m c n hn) (y 0) r
      * (downBlk m c n hn (ix2 r (y 1)) : EReal) = _
  refine Finset.sum_congr rfl fun r _ => ?_
  have hrow : (LibAxisTiles.tileIdx features_tiled s r).val = 256 * (n % 56) + r.val := by
    rw [LibAxisTiles.tileIdx_val, hs]
  rw [GatedMlp.inter_rows (tokens m c) (gateW m c) (upW m c) (tokBlk m c n hn) (gateBlk m c n hn) (upBlk m c n hn)
      t (LibAxisTiles.tileIdx features_tiled s r) (y 0) r
      (fun k => InputBlocks.tokens_block m c ⟨n, hn⟩ (y 0) k (ix2 t k) ht rfl)
      (fun k => InputBlocks.gate_block m c ⟨n, hn⟩ r k (ix2 (LibAxisTiles.tileIdx features_tiled s r) k) hrow rfl)
      (fun k => InputBlocks.up_block m c ⟨n, hn⟩ r k (ix2 (LibAxisTiles.tileIdx features_tiled s r) k) hrow rfl)]
  exact congrArg (fun z : EReal => GatedMlp.inter (tokens m c) (gateW m c) (upW m c) t (LibAxisTiles.tileIdx features_tiled s r) * z)
    (InputBlocks.down_block m c ⟨n, hn⟩ r (y 1) (ix2 (LibAxisTiles.tileIdx features_tiled s r) h) hrow hh)

/-! ## The output array -/

/-- The output array after the run, at an entry: the gated feed-forward product of the arguments there. -/
theorem result_apply (c : Dev nD) (i : S4096x4096.Idx) :
    Value.G4 m c i = GatedMlp.out (tokens m c) (gateW m c) (upW m c) (downW m c) (i 0) (i 1) := by
  have hi0 : (i 0).val < 4096 := (i 0).isLt
  have hi1 : (i 1).val < 4096 := (i 1).isLt
  have hN : cfg0.N = 448 := N_0
  have hc : 56 * Value.run4Of i + 55 < cfg0.N := by
    show 56 * (1 * ((i 0).val / 512 - 0) + 1 * ((i 1).val / 4096 - 0)) + 55 < cfg0.N
    omega
  unfold Value.G4
  rw [dif_pos hc]
  refine (fold_apply m c _ hc _).trans ?_
  rw [zero_add, Finset.sum_range]
  refine Eq.trans ?_ (GatedMlp.out_tiles features_tiled (tokens m c) (gateW m c) (upW m c) (downW m c) (i 0) (i 1)).symm
  refine Finset.sum_congr rfl fun s _ => ?_
  have hs : s.val < 56 := s.isLt
  refine addend_apply m c _ (by omega) _ (i 0) (i 1) s ?_ ?_ ?_
  · show (56 * (1 * ((i 0).val / 512 - 0) + 1 * ((i 1).val / 4096 - 0)) + s.val) % 56 = s.val
    omega
  · show (i 0).val = 512 * ((56 * (1 * ((i 0).val / 512 - 0) + 1 * ((i 1).val / 4096 - 0)) + s.val) / 56) + (i 0).val % 512
    omega
  · show (i 1).val = (i 1).val % 4096
    omega

/-- The output array after the run is the gated feed-forward product of the arguments. -/
theorem result_eq (c : Dev nD) :
    Value.G4 m c = fun i : S4096x4096.Idx => GatedMlp.out (tokens m c) (gateW m c) (upW m c) (downW m c) (i 0) (i 1) :=
  funext fun i => result_apply m c i

end Cert.KernelIdeal.RunFold

end
-- ==== Proof.lean ====
/-
  A gated feed-forward layer computed tile by tile equals the layer computed whole.

  Both programs take a token matrix `X` [4096, 4096] and three weight matrices `W1`, `V1`, `W2` [14336, 4096] and
  return the matrix whose entry at token `t` and output coordinate `h` is

      Σ_f  silu (Σ_k X t k · W1 f k) · (Σ_k X t k · V1 f k) · W2 f h,        silu z = z · 1 / (1 + e^(-z)).

  The reference forms the two projections, the gate and the final contraction over all 14336 features at once, and
  spells the logistic function as a quotient with the constant 1 (Proof/ReferenceProduct.lean). The kernel walks an
  8 × 56 grid: at row-tile `q` and feature-tile `s` it holds 512 token rows and 256 rows of each weight matrix, forms
  the gated intermediate for those rows and features, and adds its product with the 256 rows of `W2` into the output
  block, which starts at zero at the first feature-tile (Proof/TileStep.lean for one point's arithmetic,
  Proof/InputBlocks.lean for which rows a point holds). Since an entry of the intermediate reads single rows of its
  operands, each point's contribution is the part of the whole sum over its 256 features, and the 56 tiles partition
  the feature axis; a finite sum on the extended reals may be regrouped freely, so no finiteness of the inputs is
  used (Proof/GatedMlp.lean for the two laws, Proof/RunFold.lean for the run). Changes of float format are the
  identity on the extended reals, and nothing was rewritten in idealizing the kernel, so that conjunct is trivial.
-/
import proofs.«140187_j49228915147014_2_alg».proof.Defs
import proofs.«140187_j49228915147014_2_alg».proof.Proof.Gen.Kernel.Frame
import proofs.«140187_j49228915147014_2_alg».proof.Proof.Gen.KernelIdeal.Value
import proofs.«140187_j49228915147014_2_alg».proof.Proof.Gen.Pre_finite_inputs
import proofs.«140187_j49228915147014_2_alg».proof.Proof.Gen.ReferenceIdeal.Run
import proofs.«140187_j49228915147014_2_alg».proof.Proof.ReferenceProduct
import proofs.«140187_j49228915147014_2_alg».proof.Proof.RunFold
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the arguments both programs end with the gated feed-forward product of the arguments
    in their result: the kernel's fold over the feature tiles regrouped into the whole sum, the reference's term read
    entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelIdeal.RunFold.result_eq m c]
  exact Cert.ReferenceIdeal.Product.result_eq _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
